-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S65536 : Shape := ⟨1, ![65536]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S512x65536 .f32) (main_arg1 : FVec F S512x65536 .f32) (main_arg2 : FVec F S65536 .f32) (main_arg3 : FVec F S65536 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S512x65536 : Shape := ⟨2, ![512, 65536]⟩
abbrev S65536 : Shape := ⟨1, ![65536]⟩
abbrev S1x65536 : Shape := ⟨2, ![1, 65536]⟩
abbrev S512x4 : Shape := ⟨2, ![512, 4]⟩
abbrev S128x8192 : Shape := ⟨2, ![128, 8192]⟩
abbrev S128x4 : Shape := ⟨2, ![128, 4]⟩
abbrev S128x1 : Shape := ⟨2, ![128, 1]⟩
abbrev S1x8192 : Shape := ⟨2, ![1, 8192]⟩
abbrev S128 : Shape := ⟨1, ![128]⟩
abbrev S512x1 : Shape := ⟨2, ![512, 1]⟩
abbrev S512 : Shape := ⟨1, ![512]⟩
abbrev S_ : Shape := ⟨0, ![]⟩

abbrev nBuf : Space → Nat
  | .hbm => 40
  | .vmem => 12
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S1x65536, .f32⟩
  | .hbm, ⟨6, _⟩ => ⟨S512x4, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512x1, .f32⟩
  | .hbm, ⟨12, _⟩ => ⟨S512, .f32⟩
  | .hbm, ⟨13, _⟩ => ⟨S512x1, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x65536, .f32⟩
  | .local _ .vmem, ⟨5, _⟩ => ⟨S1x65536, .f32⟩
  | .local _ .vmem, ⟨6, _⟩ => ⟨S128x4, .f32⟩
  | .local _ .vmem, ⟨7, _⟩ => ⟨S128x4, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c8192_i32 : BitVec 32 := 8192#32
  let v3 : BitVec 32 := Scalar.muli arg1 c8192_i32
  v3
def k0_off1 (i : grid0.Coords) : Fin 2 → Nat :=
  let c0 : Index := 0#32
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_27 : BitVec 32 := 0#32
  let v64 : BitVec 1 := Scalar.cmpi .ne v63 c0_i32_27
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x65536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S1x65536 : S65536.ShapeCasts S1x65536
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S1x8192 : 0 < S1x8192.numel
  shapeCasts_S1x8192_S1x8192 : S1x8192.ShapeCasts S1x8192
  inb_S128x8192_S128x8192_0_0 : ∀ a, (![0, 0] : Fin 2 → Nat) a + S128x8192.size a ≤ S128x8192.size a
  h_S128x8192 : 0 < S128x8192.numel
  broadcasts_S1x8192_S128x8192 : S1x8192.Broadcasts S128x8192
  reduces_S128x8192_S128 : S128x8192.Reduces [1] S128
  shapeCasts_S128_S128x1 : S128.ShapeCasts S128x1
  concatenates_S128x1_S128x1_S128x1_S128x1_S128x4_d1 : Shape.Concatenates [S128x1, S128x1, S128x1, S128x1] S128x4 1
  inb_S128x4_S128x4_0_0 : ∀ a, (![0, 0] : Fin 2 → Nat) a + S128x4.size a ≤ S128x4.size a
  h_S128x4 : 0 < S128x4.numel
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  reducesTo_S512_S_d0 : S512.ReducesTo [0] S_
  h_S_ : 0 < S_.numel
  reducesTo_S65536_S_d0 : S65536.ReducesTo [0] S_
  hrank0 : 0 < grid0.rank
  k0_mult1_dvd : ∀ i : grid0.Coords, 8192 ∣ (k0_mult1 i).toNat
  k0_off1_inb : ∀ i : grid0.Coords, ∀ a, (k0_off1 i) a + S1x8192.size a ≤ S1x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S512x65536.size a
  hwx0_0 : ∀ i : grid0.Coords, EltTy.bits .f32 = 32 ∨ (Rect.block (s := S512x65536) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S512x65536.size a
  hwx0_1 : ∀ i : grid0.Coords, EltTy.bits .f32 = 32 ∨ (Rect.block (s := S512x65536) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x65536.size a ≤ S1x65536.size a
  hwx0_2 : ∀ i : grid0.Coords, EltTy.bits .f32 = 32 ∨ (Rect.block (s := S1x65536) S1x65536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x65536.size a ≤ S1x65536.size a
  hwx0_3 : ∀ i : grid0.Coords, EltTy.bits .f32 = 32 ∨ (Rect.block (s := S1x65536) S1x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4.size a ≤ S512x4.size a
  hwx0_4 : ∀ i : grid0.Coords, EltTy.bits .f32 = 32 ∨ (Rect.block (s := S512x4) S128x4.size (cc0_transform_4 i) (hinb0_4 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x65536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x65536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x65536 : Shape := ⟨2, ![512, 65536]⟩
abbrev S65536 : Shape := ⟨1, ![65536]⟩
abbrev S1x65536 : Shape := ⟨2, ![1, 65536]⟩
abbrev S_ : Shape := ⟨0, ![]⟩
abbrev S512 : Shape := ⟨1, ![512]⟩

abbrev nBuf : Space → Nat
  | .hbm => 57
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S512x65536, .f32⟩
  | .hbm, ⟨6, _⟩ => ⟨S512x65536, .f32⟩
  | .hbm, ⟨7, _⟩ => ⟨S1x65536, .f32⟩
  | .hbm, ⟨8, _⟩ => ⟨S512x65536, .f32⟩
  | .hbm, ⟨9, _⟩ => ⟨S512x65536, .f32⟩
  | .hbm, ⟨10, _⟩ => ⟨S512x65536, .f32⟩
  | .hbm, ⟨11, _⟩ => ⟨S_, .f32⟩
  | .hbm, ⟨12, _⟩ => ⟨S512, .f32⟩
  | .hbm, ⟨13, _⟩ => ⟨S512x65536, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x65536, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x65536, .f32⟩
  | .hbm, ⟨39, _⟩ => ⟨S512x65536, .f32⟩
  | .hbm, ⟨40, _⟩ => ⟨S512x65536, .f32⟩
  | .hbm, ⟨41, _⟩ => ⟨S512x65536, .f32⟩
  | .hbm, ⟨42, _⟩ => ⟨S512x65536, .f32⟩
  | .hbm, ⟨43, _⟩ => ⟨S512x65536, .f32⟩
  | .hbm, ⟨44, _⟩ => ⟨S1x65536, .f32⟩
  | .hbm, ⟨45, _⟩ => ⟨S512x65536, .f32⟩
  | .hbm, ⟨46, _⟩ => ⟨S512x65536, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  reducesTo_S512x65536_S512_d1 : S512x65536.ReducesTo [1] S512
  h_S_ : 0 < S_.numel
  bcast_S_S512 : S_.BroadcastsInDim S512 (![] : Fin 0 → Fin S512.rank)
  reducesTo_S512_S_d0 : S512.ReducesTo [0] S_
  bcast_S_S512x65536 : S_.BroadcastsInDim S512x65536 (![] : Fin 0 → Fin S512x65536.rank)
  reducesTo_S512x65536_S_d0_1 : S512x65536.ReducesTo [0, 1] S_
  reducesTo_S65536_S_d0 : S65536.ReducesTo [0] S_

variable [Facts₀]

class Facts : Prop extends Facts₀ where

variable [Facts]
-- ==== Proof.Pieces.lean ====
/-
  What each control case of the kernel body leaves in its four carried accumulators and in the output block,
  as pure functions of the blocks it loads.

  At a grid point (bi, ci) the body loads the 128 x 8192 blocks of `prediction` and `target`, the 8192 columns
  ci*8192 .. ci*8192+8191 of the two weight rows, and adds to each of four 128 x 1 accumulators the row sums of
  one product over those columns. At ci = 0 the accumulators are first reset to zero; at ci = 7 the four
  accumulators are written side by side as the 128 x 4 output block. The lemmas below read what each case's stores
  leave in a buffer back as these step functions; they hold for any float instance.
-/
import proofs.«144542_j34583076667969_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 8192 columns of a weight row that the point with column coordinate `i 1` reads. -/
def colBlk (i : grid0.Coords) (x : Vec F S1x65536 .f32) : Vec F S1x8192 .f32 :=
  View.ld x (Rect.unit (k0_off1 i) S1x8192.size (k0_off1_inb i))

/-- One point's update of the accumulator of sum (target * prediction) * cw^2. -/
def stepNum (i : grid0.Coords) (x0 x1 : Vec F S128x8192 .f32) (x2 : Vec F S1x65536 .f32) (acc : Vec F S128x1 .f32) :
    Vec F S128x1 .f32 := k0_pay11 (colBlk i x2) x1 x0 acc
/-- One point's update of the accumulator of sum (target * target) * cw^2. -/
def stepAa (i : grid0.Coords) (x1 : Vec F S128x8192 .f32) (x2 : Vec F S1x65536 .f32) (acc : Vec F S128x1 .f32) :
    Vec F S128x1 .f32 := k0_pay12 (colBlk i x2) x1 acc
/-- One point's update of the accumulator of sum (prediction * prediction) * cw^2. -/
def stepBb (i : grid0.Coords) (x0 : Vec F S128x8192 .f32) (x2 : Vec F S1x65536 .f32) (acc : Vec F S128x1 .f32) :
    Vec F S128x1 .f32 := k0_pay1 x0 (k0_pay10 (colBlk i x2)) acc
/-- One point's update of the accumulator of the weighted logistic-loss sum. -/
def stepBce (i : grid0.Coords) (x0 x1 : Vec F S128x8192 .f32) (x3 : Vec F S1x65536 .f32) (acc : Vec F S128x1 .f32) :
    Vec F S128x1 .f32 := k0_pay2 (k0_pay8 (colBlk i x3)) x1 (k0_pay9 x1 x0) acc

/-- At a first column block the body resets the product accumulator to zero and then adds the block's row sums. -/
theorem sA0 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : cond0_0 i) (hc1 : ¬cond0_1 i) (x0 x1 : Vec F S128x8192 .f32) (x2 x3 : Vec F S1x65536 .f32) :
    sout0_A_0 c i a2 h2 a3 h3 a4 h4 a5 h5 a6 h6 a7 h7 a8 h8 a9 h9 a10 h10 hc0 hc1 x0 x1 x2 x3 = stepNum i x0 x1 x2 k0_pay4 := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a first column block the body resets the squared-target accumulator to zero and then adds the block's row sums. -/
theorem sA1 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : cond0_0 i) (hc1 : ¬cond0_1 i) (x0 x1 : Vec F S128x8192 .f32) (x2 x3 : Vec F S1x65536 .f32) :
    sout0_A_1 c i a2 h2 a3 h3 a4 h4 a5 h5 a6 h6 a7 h7 a8 h8 a9 h9 a10 h10 hc0 hc1 x0 x1 x2 x3 = stepAa i x1 x2 k0_pay5 := by
  unfold sout0_A_1
  rw [View.read_writes_eq_canon _ _ _ (scover0_A_1 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a first column block the body resets the squared-prediction accumulator to zero and then adds the block's row sums. -/
theorem sA2 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : cond0_0 i) (hc1 : ¬cond0_1 i) (x0 x1 : Vec F S128x8192 .f32) (x2 x3 : Vec F S1x65536 .f32) :
    sout0_A_2 c i a2 h2 a3 h3 a4 h4 a5 h5 a6 h6 a7 h7 a8 h8 a9 h9 a10 h10 hc0 hc1 x0 x1 x2 x3 = stepBb i x0 x2 k0_pay6 := by
  unfold sout0_A_2
  rw [View.read_writes_eq_canon _ _ _ (scover0_A_2 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a first column block the body resets the loss accumulator to zero and then adds the block's row sums. -/
theorem sA3 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : cond0_0 i) (hc1 : ¬cond0_1 i) (x0 x1 : Vec F S128x8192 .f32) (x2 x3 : Vec F S1x65536 .f32) :
    sout0_A_3 c i a2 h2 a3 h3 a4 h4 a5 h5 a6 h6 a7 h7 a8 h8 a9 h9 a10 h10 hc0 hc1 x0 x1 x2 x3 = stepBce i x0 x1 x3 k0_pay7 := by
  unfold sout0_A_3
  rw [View.read_writes_eq_canon _ _ _ (scover0_A_3 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the product accumulator held. -/
theorem sB0 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : ¬cond0_1 i) (x0 x1 : Vec F S128x8192 .f32) (x2 x3 : Vec F S1x65536 .f32) (xs0 xs1 xs2 xs3 : Vec F S128x1 .f32) :
    sout0_B_0 c i a2 h2 a3 h3 a4 h4 a5 h5 a6 h6 a7 h7 a8 h8 a9 h9 a10 h10 hc0 hc1 x0 x1 x2 x3 xs0 xs1 xs2 xs3 = stepNum i x0 x1 x2 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the squared-target accumulator held. -/
theorem sB1 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : ¬cond0_1 i) (x0 x1 : Vec F S128x8192 .f32) (x2 x3 : Vec F S1x65536 .f32) (xs0 xs1 xs2 xs3 : Vec F S128x1 .f32) :
    sout0_B_1 c i a2 h2 a3 h3 a4 h4 a5 h5 a6 h6 a7 h7 a8 h8 a9 h9 a10 h10 hc0 hc1 x0 x1 x2 x3 xs0 xs1 xs2 xs3 = stepAa i x1 x2 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the squared-prediction accumulator held. -/
theorem sB2 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : ¬cond0_1 i) (x0 x1 : Vec F S128x8192 .f32) (x2 x3 : Vec F S1x65536 .f32) (xs0 xs1 xs2 xs3 : Vec F S128x1 .f32) :
    sout0_B_2 c i a2 h2 a3 h3 a4 h4 a5 h5 a6 h6 a7 h7 a8 h8 a9 h9 a10 h10 hc0 hc1 x0 x1 x2 x3 xs0 xs1 xs2 xs3 = stepBb i x0 x2 xs2 := by
  unfold sout0_B_2
  rw [View.read_writes_eq_canon _ _ _ (scover0_B_2 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the loss accumulator held. -/
theorem sB3 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : ¬cond0_1 i) (x0 x1 : Vec F S128x8192 .f32) (x2 x3 : Vec F S1x65536 .f32) (xs0 xs1 xs2 xs3 : Vec F S128x1 .f32) :
    sout0_B_3 c i a2 h2 a3 h3 a4 h4 a5 h5 a6 h6 a7 h7 a8 h8 a9 h9 a10 h10 hc0 hc1 x0 x1 x2 x3 xs0 xs1 xs2 xs3 = stepBce i x0 x1 x3 xs3 := by
  unfold sout0_B_3
  rw [View.read_writes_eq_canon _ _ _ (scover0_B_3 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the product accumulator held. -/
theorem sC0 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : cond0_1 i) (x0 x1 : Vec F S128x8192 .f32) (x2 x3 : Vec F S1x65536 .f32) (xs0 xs1 xs2 xs3 : Vec F S128x1 .f32) :
    sout0_C_0 c i a2 h2 a3 h3 a4 h4 a5 h5 a6 h6 a7 h7 a8 h8 a9 h9 a10 h10 hc0 hc1 x0 x1 x2 x3 xs0 xs1 xs2 xs3 = stepNum i x0 x1 x2 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the squared-target accumulator held. -/
theorem sC1 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : cond0_1 i) (x0 x1 : Vec F S128x8192 .f32) (x2 x3 : Vec F S1x65536 .f32) (xs0 xs1 xs2 xs3 : Vec F S128x1 .f32) :
    sout0_C_1 c i a2 h2 a3 h3 a4 h4 a5 h5 a6 h6 a7 h7 a8 h8 a9 h9 a10 h10 hc0 hc1 x0 x1 x2 x3 xs0 xs1 xs2 xs3 = stepAa i x1 x2 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the squared-prediction accumulator held. -/
theorem sC2 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : cond0_1 i) (x0 x1 : Vec F S128x8192 .f32) (x2 x3 : Vec F S1x65536 .f32) (xs0 xs1 xs2 xs3 : Vec F S128x1 .f32) :
    sout0_C_2 c i a2 h2 a3 h3 a4 h4 a5 h5 a6 h6 a7 h7 a8 h8 a9 h9 a10 h10 hc0 hc1 x0 x1 x2 x3 xs0 xs1 xs2 xs3 = stepBb i x0 x2 xs2 := by
  unfold sout0_C_2
  rw [View.read_writes_eq_canon _ _ _ (scover0_C_2 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At a later column block the body adds the block's row sums to what the loss accumulator held. -/
theorem sC3 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : cond0_1 i) (x0 x1 : Vec F S128x8192 .f32) (x2 x3 : Vec F S1x65536 .f32) (xs0 xs1 xs2 xs3 : Vec F S128x1 .f32) :
    sout0_C_3 c i a2 h2 a3 h3 a4 h4 a5 h5 a6 h6 a7 h7 a8 h8 a9 h9 a10 h10 hc0 hc1 x0 x1 x2 x3 xs0 xs1 xs2 xs3 = stepBce i x0 x1 x3 xs3 := by
  unfold sout0_C_3
  rw [View.read_writes_eq_canon _ _ _ (scover0_C_3 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S128x1) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

/-- At the last column block the output block is the four updated accumulators side by side. -/
theorem oC4 (c : Dev nD) (i : grid0.Coords) (a2 : Memref sig .tc .vmem S128x8192 .f32) (h2 : a2.IsWhole) (a3 : Memref sig .tc .vmem S128x8192 .f32) (h3 : a3.IsWhole) (a4 : Memref sig .tc .vmem S1x65536 .f32) (h4 : a4.IsWhole) (a5 : Memref sig .tc .vmem S1x65536 .f32) (h5 : a5.IsWhole) (a6 : Memref sig .tc .vmem S128x4 .f32) (h6 : a6.IsWhole) (a7 : Memref sig .tc .vmem S128x1 .f32) (h7 : a7.IsWhole) (a8 : Memref sig .tc .vmem S128x1 .f32) (h8 : a8.IsWhole) (a9 : Memref sig .tc .vmem S128x1 .f32) (h9 : a9.IsWhole) (a10 : Memref sig .tc .vmem S128x1 .f32) (h10 : a10.IsWhole) (hc0 : ¬cond0_0 i) (hc1 : cond0_1 i) (x0 x1 : Vec F S128x8192 .f32) (x2 x3 : Vec F S1x65536 .f32) (xs0 xs1 xs2 xs3 : Vec F S128x1 .f32) :
    out0_C_4 c i a2 h2 a3 h3 a4 h4 a5 h5 a6 h6 a7 h7 a8 h8 a9 h9 a10 h10 hc0 hc1 x0 x1 x2 x3 xs0 xs1 xs2 xs3
      = k0_pay3 (stepNum i x0 x1 x2 xs0) (stepAa i x1 x2 xs1) (stepBb i x0 x2 xs2) (stepBce i x0 x1 x3 xs3) := by
  unfold out0_C_4
  rw [View.read_writes_eq_canon _ _ _ (cover0_C_4 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S128x4) hz]
  simp only [View.readAt_eq_ld, h2.read_unread, h3.read_unread, h4.read_unread, h5.read_unread, h7.read_unread, h8.read_unread, h9.read_unread, h10.read_unread, View.ld_unit_zero (S := S128x8192) hz, View.ld_unit_zero (S := S128x1) hz, View.readCov_unit_zero (S := S128x1) _ hz]
  rfl

end Cert.KernelIdeal.Pieces

end
-- ==== Proof.Cases.lean ====
/-
  The accumulators point by point.  After the point at position t of the grid (row block t / 8, column block
  t % 8) each of the four accumulators is one step applied to the point's blocks: from zero at a first column
  block (t % 8 = 0), from what the point before left otherwise; and at a last column block (t % 8 = 7) the output
  block is the four of them side by side.  These are the generated case equations with each case's stores read
  back as the step functions; they hold for any float instance.
-/
import proofs.«144542_j34583076667969_2_alg».proof.Proof.Pieces

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]
variable (m : (ℓ : Loc nD τ sig) → Buf (Elt F) ℓ)

/-- What the point before `t` left (the output block, then the four accumulators). -/
abbrev prev (c : Dev nD) (t : Fin cfg0.N) :=
  outsAt0 m c (t.val - 1) (Nat.lt_of_le_of_lt (Nat.sub_le _ _) t.isLt)

/-- The product accumulator after a first column block: one step from zero. -/
theorem first_0 (c : Dev nD) (t : Fin cfg0.N) (h0 : t.val % 8 = 0) :
    (outsAt0 m c t.val t.isLt).2.1 = stepNum (grid0.coords t) (iblk m c 0 t) (iblk m c 1 t) (iblk m c 2 t) k0_pay4 := by
  have h1 : ¬t.val % 8 = 7 := by omega
  rw [outsAt0_A m c t h0 h1]
  exact sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The product accumulator after a later column block: one step from what the point before left. -/
theorem later_0 (c : Dev nD) (t : Fin cfg0.N) (h0 : ¬t.val % 8 = 0) :
    (outsAt0 m c t.val t.isLt).2.1 = stepNum (grid0.coords t) (iblk m c 0 t) (iblk m c 1 t) (iblk m c 2 t) (prev m c t).2.1 := by
  by_cases h1 : t.val % 8 = 7
  · rw [outsAt0_C m c t h0 h1]
    exact sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2
  · rw [outsAt0_B m c t h0 h1]
    exact sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The squared-target accumulator after a first column block: one step from zero. -/
theorem first_1 (c : Dev nD) (t : Fin cfg0.N) (h0 : t.val % 8 = 0) :
    (outsAt0 m c t.val t.isLt).2.2.1 = stepAa (grid0.coords t) (iblk m c 1 t) (iblk m c 2 t) k0_pay5 := by
  have h1 : ¬t.val % 8 = 7 := by omega
  rw [outsAt0_A m c t h0 h1]
  exact sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The squared-target accumulator after a later column block: one step from what the point before left. -/
theorem later_1 (c : Dev nD) (t : Fin cfg0.N) (h0 : ¬t.val % 8 = 0) :
    (outsAt0 m c t.val t.isLt).2.2.1 = stepAa (grid0.coords t) (iblk m c 1 t) (iblk m c 2 t) (prev m c t).2.2.1 := by
  by_cases h1 : t.val % 8 = 7
  · rw [outsAt0_C m c t h0 h1]
    exact sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2
  · rw [outsAt0_B m c t h0 h1]
    exact sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The squared-prediction accumulator after a first column block: one step from zero. -/
theorem first_2 (c : Dev nD) (t : Fin cfg0.N) (h0 : t.val % 8 = 0) :
    (outsAt0 m c t.val t.isLt).2.2.2.1 = stepBb (grid0.coords t) (iblk m c 0 t) (iblk m c 2 t) k0_pay6 := by
  have h1 : ¬t.val % 8 = 7 := by omega
  rw [outsAt0_A m c t h0 h1]
  exact sA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The squared-prediction accumulator after a later column block: one step from what the point before left. -/
theorem later_2 (c : Dev nD) (t : Fin cfg0.N) (h0 : ¬t.val % 8 = 0) :
    (outsAt0 m c t.val t.isLt).2.2.2.1 = stepBb (grid0.coords t) (iblk m c 0 t) (iblk m c 2 t) (prev m c t).2.2.2.1 := by
  by_cases h1 : t.val % 8 = 7
  · rw [outsAt0_C m c t h0 h1]
    exact sC2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2
  · rw [outsAt0_B m c t h0 h1]
    exact sB2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The loss accumulator after a first column block: one step from zero. -/
theorem first_3 (c : Dev nD) (t : Fin cfg0.N) (h0 : t.val % 8 = 0) :
    (outsAt0 m c t.val t.isLt).2.2.2.2 = stepBce (grid0.coords t) (iblk m c 0 t) (iblk m c 1 t) (iblk m c 3 t) k0_pay7 := by
  have h1 : ¬t.val % 8 = 7 := by omega
  rw [outsAt0_A m c t h0 h1]
  exact sA3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The loss accumulator after a later column block: one step from what the point before left. -/
theorem later_3 (c : Dev nD) (t : Fin cfg0.N) (h0 : ¬t.val % 8 = 0) :
    (outsAt0 m c t.val t.isLt).2.2.2.2 = stepBce (grid0.coords t) (iblk m c 0 t) (iblk m c 1 t) (iblk m c 3 t) (prev m c t).2.2.2.2 := by
  by_cases h1 : t.val % 8 = 7
  · rw [outsAt0_C m c t h0 h1]
    exact sC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2
  · rw [outsAt0_B m c t h0 h1]
    exact sB3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The output block after a last column block: the four updated accumulators side by side. -/
theorem last_out (c : Dev nD) (t : Fin cfg0.N) (h1 : t.val % 8 = 7) :
    (outsAt0 m c t.val t.isLt).1
      = k0_pay3 (stepNum (grid0.coords t) (iblk m c 0 t) (iblk m c 1 t) (iblk m c 2 t) (prev m c t).2.1) (stepAa (grid0.coords t) (iblk m c 1 t) (iblk m c 2 t) (prev m c t).2.2.1)
          (stepBb (grid0.coords t) (iblk m c 0 t) (iblk m c 2 t) (prev m c t).2.2.2.1) (stepBce (grid0.coords t) (iblk m c 0 t) (iblk m c 1 t) (iblk m c 3 t) (prev m c t).2.2.2.2) := by
  have h0 : ¬t.val % 8 = 0 := by omega
  rw [outsAt0_C m c t h0 h1]
  exact oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2

end Cert.KernelIdeal.Pieces

end
-- ==== Proof.Spec.lean ====
/-
  The mathematics both programs compute, stated once over the extended reals with no program in sight.

  Inputs: P (prediction) and T (target), 512 x 65536; cw and bw, weight rows of length 65536.
  For a row r the four column sums are
      num r = sum_c (T r c * P r c) * (cw c * cw c)        aa r = sum_c (T r c * T r c) * (cw c * cw c)
      bb r  = sum_c (P r c * P r c) * (cw c * cw c)        ls r = sum_c bce (T r c) (P r c) * bw c
  with bce x y = max x 0 - x * y + log1p (exp (0 - |x|)).  The result is
      -( (sum_r num r / (max (sqrt (aa r)) eps * max (sqrt (bb r)) eps)) / 512 )
        + ((sum_r ls r) / (sum_c bw c + eps')) / 10.
  Entries are read with natural-number coordinates (wrapped into range), so that a sum over the 65536 columns can be
  cut into eight runs of 8192 with `Finset.range` arithmetic.  The only algebra used is that + and * on the
  extended reals are commutative and associative; no finiteness is needed.
-/
import Idealize.ShloMosaic.PureOps.Ideal.Laws
import Idealize.ShloMosaic.Lib.ValueIdx

noncomputable section

open scoped BigOperators
open Idealize.ShloMosaic Idealize.ShloMosaic.ValueIdx

namespace Cert.CosBce

/-- The shape of `prediction` and `target`. -/
abbrev S2 : Shape := ⟨2, ![512, 65536]⟩
/-- The shape of the two weight rows. -/
abbrev S1 : Shape := ⟨1, ![65536]⟩
/-- The shape of the kernel's array of partial results: one row of four sums per row of the inputs. -/
abbrev S4 : Shape := ⟨2, ![512, 4]⟩

/-- The word of +0.0, read at the ideal instance. -/
abbrev z32 : EReal := Ideal.ofBits .f32 0x00000000#32
theorem z32_eq : z32 = 0 := Ideal.ofBits_zero_f32

/-- Entry (r, c) of a 512 x 65536 array, the coordinates wrapped into range. -/
def at2 (X : S2.Idx → EReal) (r c : ℕ) : EReal :=
  X (ix2 (⟨r % 512, Nat.mod_lt _ (by decide)⟩ : Fin 512) (⟨c % 65536, Nat.mod_lt _ (by decide)⟩ : Fin 65536))
/-- Entry c of a weight row, the coordinate wrapped into range. -/
def at1 (w : S1.Idx → EReal) (c : ℕ) : EReal := w (ix1 (⟨c % 65536, Nat.mod_lt _ (by decide)⟩ : Fin 65536))

theorem at2_of_lt (X : S2.Idx → EReal) (r : Fin 512) (c : Fin 65536) : at2 X r.val c.val = X (ix2 r c) := by
  unfold at2
  congr 1
  funext d
  match d with
  | ⟨0, _⟩ => exact Fin.ext (Nat.mod_eq_of_lt r.isLt)
  | ⟨1, _⟩ => exact Fin.ext (Nat.mod_eq_of_lt c.isLt)

theorem at1_of_lt (w : S1.Idx → EReal) (c : Fin 65536) : at1 w c.val = w (ix1 c) := by
  unfold at1
  congr 1
  funext d
  match d with
  | ⟨0, _⟩ => exact Fin.ext (Nat.mod_eq_of_lt c.isLt)

/-- The numerically stable logistic loss of logit `x` against soft target `y`. -/
def bce (x y : EReal) : EReal := (max x z32 - x * y) + Ideal.log1p (Ideal.exp (z32 - max x (-x)))

/-- The summand of the cosine numerator. -/
def tNum (P T : S2.Idx → EReal) (cw : S1.Idx → EReal) (r c : ℕ) : EReal :=
  (at2 T r c * at2 P r c) * (at1 cw c * at1 cw c)
/-- The summand of the squared norm of the weighted target. -/
def tAa (T : S2.Idx → EReal) (cw : S1.Idx → EReal) (r c : ℕ) : EReal :=
  (at2 T r c * at2 T r c) * (at1 cw c * at1 cw c)
/-- The summand of the squared norm of the weighted prediction. -/
def tBb (P : S2.Idx → EReal) (cw : S1.Idx → EReal) (r c : ℕ) : EReal :=
  (at2 P r c * at2 P r c) * (at1 cw c * at1 cw c)
/-- The summand of the weighted loss. -/
def tBce (P T : S2.Idx → EReal) (bw : S1.Idx → EReal) (r c : ℕ) : EReal :=
  bce (at2 T r c) (at2 P r c) * at1 bw c

/-- The sum of the first `n` columns of row `r`. -/
def colSum (f : ℕ → ℕ → EReal) (r n : ℕ) : EReal := ∑ c ∈ Finset.range n, f r c

theorem colSum_zero (f : ℕ → ℕ → EReal) (r : ℕ) : colSum f r (0 * 8192) = 0 := by
  unfold colSum; rw [Nat.zero_mul, Finset.sum_range_zero]

/-- Adding the next run of 8192 columns. -/
theorem colSum_succ (f : ℕ → ℕ → EReal) (r k : ℕ) :
    colSum f r ((k + 1) * 8192) = colSum f r (k * 8192) + ∑ l : Fin 8192, f r (k * 8192 + l.val) := by
  unfold colSum
  rw [Nat.add_mul, Nat.one_mul, Finset.sum_range_add, Fin.sum_univ_eq_sum_range (fun l => f r (k * 8192 + l)) 8192]

/-- A whole row's sum, over the column coordinate as a `Fin`. -/
theorem colSum_full (f : ℕ → ℕ → EReal) (r : ℕ) : colSum f r 65536 = ∑ c : Fin 65536, f r c.val := by
  unfold colSum; rw [Fin.sum_univ_eq_sum_range (fun c => f r c) 65536]

/-- The four column sums of row `r`, by column of the kernel's array of partial results. -/
def term (P T : S2.Idx → EReal) (cw bw : S1.Idx → EReal) : ℕ → ℕ → ℕ → EReal
  | 0 => tNum P T cw
  | 1 => tAa T cw
  | 2 => tBb P cw
  | _ => tBce P T bw

/-- The kernel's array of partial results: entry (r, j) is the j-th column sum of row r. -/
def partials (P T : S2.Idx → EReal) (cw bw : S1.Idx → EReal) : S4.Idx → EReal :=
  fun i => colSum (term P T cw bw (i 1).val) (i 0).val 65536

/-- A rank-1 index set is its coordinate range, so a sum over it is the sum over the coordinate. -/
def idxEquiv1 {n : ℕ} : (⟨1, ![n]⟩ : Shape).Idx ≃ Fin n where
  toFun i := i 0
  invFun r := ix1 r
  left_inv i := (eq_ix1 i).symm
  right_inv _ := rfl

theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

-- a sum over 65536 columns is never to be evaluated: from here on it is opened only by the lemmas above
attribute [irreducible] colSum

end Cert.CosBce

end
-- ==== Proof.StepIdeal.lean ====
/-
  The four accumulator updates read at one row, at the ideal instance: each adds to the old entry of row p the sum
  over the block's 8192 columns of one product of the loaded blocks' entries.  A lane reduction is a finite sum
  over the column coordinate; a row of weights broadcast down the block reads its one row; the column form of a
  128-vector reads the vector's entry.
-/
import proofs.«144542_j34583076667969_2_alg».proof.Proof.Pieces
import proofs.«144542_j34583076667969_2_alg».proof.Proof.Spec
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen

/-- A 128-vector viewed as a 128 x 1 column reads, at row p, the vector's entry p. -/
theorem cast_col (v : FVec Ideal S128 .f32) (p : Fin 128) (q : Fin 1) :
    shapeCast S128x1 v shapeCasts_S128_S128x1 (ix2 p q) = v (ix1 p) := by
  refine shapeCast_apply v _ (ix2 p q) (ix1 p) ?_
  rw [Shape.rowMajor_val_one, Shape.rowMajor_val_two]
  show p.val = p.val * 1 + q.val
  have := q.isLt; omega

/-- The lane reduction of a 128 x 8192 block at row p is the sum of that row's 8192 entries. -/
theorem rowsum (src : FVec Ideal S128x8192 .f32) (hacc : (0x00000000#32 : BitVec 32) = 0x00000000#32) (p : Fin 128) :
    multiReduction .add [1] S128 src 0x00000000#32 reduces_S128x8192_S128 (.inl rfl) hacc (ix1 p)
      = ∑ k : Fin 8192, src (ix2 p k) := by
  refine (Ideal.multiReduction_add_single src 0x00000000#32 reduces_S128x8192_S128 (.inl rfl) hacc (ix1 p)).trans ?_
  refine Finset.sum_congr rfl fun k _ => congrArg src ?_
  funext a
  match a with
  | ⟨0, _⟩ => rfl
  | ⟨1, _⟩ => rfl

/-- Entry c of a 1 x 65536 weight row, the coordinate wrapped into range. -/
def row1 (x : Vec Ideal S1x65536 .f32) (c : ℕ) : EReal :=
  x (ix2 (0 : Fin 1) (⟨c % 65536, Nat.mod_lt _ (by decide)⟩ : Fin 65536))

/-- The columns a point reads from a weight row start at 8192 times its column coordinate. -/
theorem colBlk_apply (i : grid0.Coords) (x : Vec Ideal S1x65536 .f32) (k : Fin 8192) :
    colBlk i x (ix2 (0 : Fin 1) k) = row1 x ((i 1).val * 8192 + k.val) := by
  have hi : (i 1).val < 8 := (i 1).isLt
  unfold colBlk row1
  show x ((Rect.unit (s := S1x65536) (k0_off1 i) S1x8192.size (k0_off1_inb i)).emb (ix2 (0 : Fin 1) k)) = _
  refine congrArg x (funext fun a => Fin.ext ?_)
  match a with
  | ⟨0, _⟩ =>
    show k0_off1 i 0 + 1 * 0 = 0
    rw [k0_off1_eq]; rfl
  | ⟨1, _⟩ =>
    show k0_off1 i 1 + 1 * k.val = ((i 1).val * 8192 + k.val) % 65536
    rw [k0_off1_eq, Nat.mod_eq_of_lt (by have := k.isLt; omega)]
    show 8192 * (i 1).val + 1 * k.val = _
    omega

theorem stepNum_apply (i : grid0.Coords) (x0 x1 : Vec Ideal S128x8192 .f32) (x2 : Vec Ideal S1x65536 .f32)
    (acc : Vec Ideal S128x1 .f32) (p : Fin 128) (q : Fin 1) :
    stepNum i x0 x1 x2 acc (ix2 p q)
      = acc (ix2 p q) + ∑ k : Fin 8192, (x1 (ix2 p k) * x0 (ix2 p k))
          * (row1 x2 ((i 1).val * 8192 + k.val) * row1 x2 ((i 1).val * 8192 + k.val)) := by
  unfold stepNum k0_pay11 k0_pay9 k0_pay10
  dsimp only
  simp only [shapeCast_self]
  rw [addf_apply, cast_col, rowsum]
  refine congrArg (acc (ix2 p q) + ·) (Finset.sum_congr rfl fun k _ => ?_)
  rw [mulf_apply, mulf_apply, broadcastTo_1b_ab_apply, mulf_apply, colBlk_apply]

theorem stepAa_apply (i : grid0.Coords) (x1 : Vec Ideal S128x8192 .f32) (x2 : Vec Ideal S1x65536 .f32)
    (acc : Vec Ideal S128x1 .f32) (p : Fin 128) (q : Fin 1) :
    stepAa i x1 x2 acc (ix2 p q)
      = acc (ix2 p q) + ∑ k : Fin 8192, (x1 (ix2 p k) * x1 (ix2 p k))
          * (row1 x2 ((i 1).val * 8192 + k.val) * row1 x2 ((i 1).val * 8192 + k.val)) := by
  unfold stepAa k0_pay12 k0_pay10
  dsimp only
  simp only [shapeCast_self]
  rw [addf_apply, cast_col, rowsum]
  refine congrArg (acc (ix2 p q) + ·) (Finset.sum_congr rfl fun k _ => ?_)
  rw [mulf_apply, mulf_apply, broadcastTo_1b_ab_apply, mulf_apply, colBlk_apply]

theorem stepBb_apply (i : grid0.Coords) (x0 : Vec Ideal S128x8192 .f32) (x2 : Vec Ideal S1x65536 .f32)
    (acc : Vec Ideal S128x1 .f32) (p : Fin 128) (q : Fin 1) :
    stepBb i x0 x2 acc (ix2 p q)
      = acc (ix2 p q) + ∑ k : Fin 8192, (x0 (ix2 p k) * x0 (ix2 p k))
          * (row1 x2 ((i 1).val * 8192 + k.val) * row1 x2 ((i 1).val * 8192 + k.val)) := by
  unfold stepBb k0_pay1 k0_pay10
  dsimp only
  simp only [shapeCast_self]
  rw [addf_apply, cast_col, rowsum]
  refine congrArg (acc (ix2 p q) + ·) (Finset.sum_congr rfl fun k _ => ?_)
  rw [mulf_apply, mulf_apply, broadcastTo_1b_ab_apply, mulf_apply, colBlk_apply]

theorem stepBce_apply (i : grid0.Coords) (x0 x1 : Vec Ideal S128x8192 .f32) (x3 : Vec Ideal S1x65536 .f32)
    (acc : Vec Ideal S128x1 .f32) (p : Fin 128) (q : Fin 1) :
    stepBce i x0 x1 x3 acc (ix2 p q)
      = acc (ix2 p q) + ∑ k : Fin 8192, Cert.CosBce.bce (x1 (ix2 p k)) (x0 (ix2 p k))
          * row1 x3 ((i 1).val * 8192 + k.val) := by
  unfold stepBce k0_pay2 k0_pay8 k0_pay9
  dsimp only
  simp only [shapeCast_self]
  rw [addf_apply, cast_col, rowsum]
  refine congrArg (acc (ix2 p q) + ·) (Finset.sum_congr rfl fun k _ => ?_)
  rw [mulf_apply, broadcastTo_1b_ab_apply, colBlk_apply]
  rfl

end Cert.KernelIdeal.Pieces

end
-- ==== Proof.Blocks.lean ====
/-
  The blocks a grid point loads are entries of the argument arrays, and one accumulator step at a point adds, to
  each row of the block, that row's sum of one summand of the specification over the point's 8192 columns.

  The point at position t of the 4 x 8 grid has row block t / 8 and column block t % 8: its prediction and target
  blocks hold rows (t / 8) * 128 .. and columns (t % 8) * 8192 ..; the two weight rows are staged whole (a
  reshape of the arguments made before the region), and the body reads from them the columns starting at
  (t % 8) * 8192.
-/
import proofs.«144542_j34583076667969_2_alg».proof.Proof.Cases
import proofs.«144542_j34583076667969_2_alg».proof.Proof.StepIdeal
import proofs.«144542_j34583076667969_2_alg».proof.Proof.Spec
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.CosBce

variable (m : (ℓ : Loc nD τ sig) → Buf (Elt Ideal) ℓ)

/-! ## Where each window's block sits, decided once over the grid -/

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem coord1 : ∀ t : Fin cfg0.N, ((grid0.coords t) 1).val = t.val % 8 :=
  (by decide +kernel : ∀ t : Fin grid0.N, ((grid0.coords t) 1).val = t.val % 8)

/-! ## The blocks a point loads, as entries of the argument arrays -/

/-- The prediction block at point t: rows (t / 8) * 128 .., columns (t % 8) * 8192 .. -/
theorem blk0 (c : Dev nD) (t : Fin cfg0.N) (p : Fin 128) (k : Fin 8192) :
    iblk m c 0 t (ix2 p k)
      = at2 (m ((c : Thread nD τ).loc main_arg0)) ((t.val / 8) * 128 + p.val) ((t.val % 8) * 8192 + k.val) := by
  have hN : t.val < 32 := lt_of_lt_of_eq t.isLt (show cfg0.N = 32 from N_0)
  obtain ⟨h0, h1⟩ := idx0 t
  unfold at2
  rw [← V_main_arg0 m c]
  show V m c main_arg0 (((cfg0.win 0).blk t).view.emb (ix2 p k)) = V m c main_arg0 _
  refine congrArg (V m c main_arg0) (funext fun a => Fin.ext ?_)
  match a with
  | ⟨0, _⟩ =>
    show win0_0.index t 0 * 128 + 1 * p.val = ((t.val / 8) * 128 + p.val) % 512
    rw [h0, Nat.mod_eq_of_lt (by have := p.isLt; omega)]; omega
  | ⟨1, _⟩ =>
    show win0_0.index t 1 * 8192 + 1 * k.val = ((t.val % 8) * 8192 + k.val) % 65536
    rw [h1, Nat.mod_eq_of_lt (show (t.val % 8) * 8192 + k.val < 65536 by have := k.isLt; omega)]; omega

/-- The target block at point t. -/
theorem blk1 (c : Dev nD) (t : Fin cfg0.N) (p : Fin 128) (k : Fin 8192) :
    iblk m c 1 t (ix2 p k)
      = at2 (m ((c : Thread nD τ).loc main_arg1)) ((t.val / 8) * 128 + p.val) ((t.val % 8) * 8192 + k.val) := by
  have hN : t.val < 32 := lt_of_lt_of_eq t.isLt (show cfg0.N = 32 from N_0)
  obtain ⟨h0, h1⟩ := idx1 t
  unfold at2
  rw [← V_main_arg1 m c]
  show V m c main_arg1 (((cfg0.win 1).blk t).view.emb (ix2 p k)) = V m c main_arg1 _
  refine congrArg (V m c main_arg1) (funext fun a => Fin.ext ?_)
  match a with
  | ⟨0, _⟩ =>
    show win0_1.index t 0 * 128 + 1 * p.val = ((t.val / 8) * 128 + p.val) % 512
    rw [h0, Nat.mod_eq_of_lt (by have := p.isLt; omega)]; omega
  | ⟨1, _⟩ =>
    show win0_1.index t 1 * 8192 + 1 * k.val = ((t.val % 8) * 8192 + k.val) % 65536
    rw [h1, Nat.mod_eq_of_lt (show (t.val % 8) * 8192 + k.val < 65536 by have := k.isLt; omega)]; omega

/-- The reshaped weight row the region finds is the argument's row. -/
theorem V_v0 (c : Dev nD) : (V m c main_v0 : S1x65536.Idx → EReal)
    = shapeCast S1x65536 (m ((c : Thread nD τ).loc main_arg2)) shapeCasts_S65536_S1x65536 := by
  show StableHlo.after hostOps0 (fun b => m (c, b)) (Proc.devRef .tc main_v0) = _
  after_results
  rfl

theorem V_v1 (c : Dev nD) : (V m c main_v1 : S1x65536.Idx → EReal)
    = shapeCast S1x65536 (m ((c : Thread nD τ).loc main_arg3)) shapeCasts_S65536_S1x65536 := by
  show StableHlo.after hostOps0 (fun b => m (c, b)) (Proc.devRef .tc main_v1) = _
  after_results
  rfl

/-- The whole cosine-weight row is staged at every point: its entries are the argument's. -/
theorem row2 (c : Dev nD) (t : Fin cfg0.N) (n : ℕ) :
    row1 (iblk m c 2 t) n = at1 (m ((c : Thread nD τ).loc main_arg2)) n := by
  obtain ⟨h0, h1⟩ := idx2 t
  unfold row1 at1
  refine Eq.trans (b := V m c main_v0 (ix2 (0 : Fin 1) (⟨n % 65536, Nat.mod_lt _ (by decide)⟩ : Fin 65536))) ?_ ?_
  · show V m c main_v0 (((cfg0.win 2).blk t).view.emb (ix2 (0 : Fin 1) (⟨n % 65536, Nat.mod_lt _ (by decide)⟩ : Fin 65536)))
      = V m c main_v0 _
    refine congrArg (V m c main_v0) (funext fun a => Fin.ext ?_)
    match a with
    | ⟨0, _⟩ => show win0_2.index t 0 * 1 + 1 * 0 = 0; rw [h0]
    | ⟨1, _⟩ => show win0_2.index t 1 * 65536 + 1 * (n % 65536) = n % 65536; rw [h1]; omega
  · rw [V_v0]
    exact shapeCast_a_1a_apply _ _ _ _

/-- The whole loss-weight row likewise. -/
theorem row3 (c : Dev nD) (t : Fin cfg0.N) (n : ℕ) :
    row1 (iblk m c 3 t) n = at1 (m ((c : Thread nD τ).loc main_arg3)) n := by
  obtain ⟨h0, h1⟩ := idx3 t
  unfold row1 at1
  refine Eq.trans (b := V m c main_v1 (ix2 (0 : Fin 1) (⟨n % 65536, Nat.mod_lt _ (by decide)⟩ : Fin 65536))) ?_ ?_
  · show V m c main_v1 (((cfg0.win 3).blk t).view.emb (ix2 (0 : Fin 1) (⟨n % 65536, Nat.mod_lt _ (by decide)⟩ : Fin 65536)))
      = V m c main_v1 _
    refine congrArg (V m c main_v1) (funext fun a => Fin.ext ?_)
    match a with
    | ⟨0, _⟩ => show win0_3.index t 0 * 1 + 1 * 0 = 0; rw [h0]
    | ⟨1, _⟩ => show win0_3.index t 1 * 65536 + 1 * (n % 65536) = n % 65536; rw [h1]; omega
  · rw [V_v1]
    exact shapeCast_a_1a_apply _ _ _ _

/-! ## One step at a point, in the arguments' entries -/

/-- The arguments on core c. -/
abbrev aP (c : Dev nD) : S2.Idx → EReal := m ((c : Thread nD τ).loc main_arg0)
abbrev aT (c : Dev nD) : S2.Idx → EReal := m ((c : Thread nD τ).loc main_arg1)
abbrev aCw (c : Dev nD) : S1.Idx → EReal := m ((c : Thread nD τ).loc main_arg2)
abbrev aBw (c : Dev nD) : S1.Idx → EReal := m ((c : Thread nD τ).loc main_arg3)

theorem num_step (c : Dev nD) (t : Fin cfg0.N) (acc : Vec Ideal S128x1 .f32) (y : S128x1.Idx) :
    stepNum (grid0.coords t) (iblk m c 0 t) (iblk m c 1 t) (iblk m c 2 t) acc y
      = acc y + ∑ l : Fin 8192, tNum (aP m c) (aT m c) (aCw m c) ((t.val / 8) * 128 + (y 0).val) ((t.val % 8) * 8192 + l.val) := by
  obtain ⟨p, q, rfl⟩ : ∃ (p : Fin 128) (q : Fin 1), y = ix2 p q := ⟨y 0, y 1, eq_ix2 y⟩
  refine (stepNum_apply (grid0.coords t) (iblk m c 0 t) (iblk m c 1 t) (iblk m c 2 t) acc p q).trans ?_
  refine congrArg (acc (ix2 p q) + ·) (Finset.sum_congr rfl fun l _ => ?_)
  rw [blk1, blk0, row2, coord1]
  rfl

theorem aa_step (c : Dev nD) (t : Fin cfg0.N) (acc : Vec Ideal S128x1 .f32) (y : S128x1.Idx) :
    stepAa (grid0.coords t) (iblk m c 1 t) (iblk m c 2 t) acc y
      = acc y + ∑ l : Fin 8192, tAa (aT m c) (aCw m c) ((t.val / 8) * 128 + (y 0).val) ((t.val % 8) * 8192 + l.val) := by
  obtain ⟨p, q, rfl⟩ : ∃ (p : Fin 128) (q : Fin 1), y = ix2 p q := ⟨y 0, y 1, eq_ix2 y⟩
  refine (stepAa_apply (grid0.coords t) (iblk m c 1 t) (iblk m c 2 t) acc p q).trans ?_
  refine congrArg (acc (ix2 p q) + ·) (Finset.sum_congr rfl fun l _ => ?_)
  rw [blk1, row2, coord1]
  rfl

theorem bb_step (c : Dev nD) (t : Fin cfg0.N) (acc : Vec Ideal S128x1 .f32) (y : S128x1.Idx) :
    stepBb (grid0.coords t) (iblk m c 0 t) (iblk m c 2 t) acc y
      = acc y + ∑ l : Fin 8192, tBb (aP m c) (aCw m c) ((t.val / 8) * 128 + (y 0).val) ((t.val % 8) * 8192 + l.val) := by
  obtain ⟨p, q, rfl⟩ : ∃ (p : Fin 128) (q : Fin 1), y = ix2 p q := ⟨y 0, y 1, eq_ix2 y⟩
  refine (stepBb_apply (grid0.coords t) (iblk m c 0 t) (iblk m c 2 t) acc p q).trans ?_
  refine congrArg (acc (ix2 p q) + ·) (Finset.sum_congr rfl fun l _ => ?_)
  rw [blk0, row2, coord1]
  rfl

theorem bce_step (c : Dev nD) (t : Fin cfg0.N) (acc : Vec Ideal S128x1 .f32) (y : S128x1.Idx) :
    stepBce (grid0.coords t) (iblk m c 0 t) (iblk m c 1 t) (iblk m c 3 t) acc y
      = acc y + ∑ l : Fin 8192, tBce (aP m c) (aT m c) (aBw m c) ((t.val / 8) * 128 + (y 0).val) ((t.val % 8) * 8192 + l.val) := by
  obtain ⟨p, q, rfl⟩ : ∃ (p : Fin 128) (q : Fin 1), y = ix2 p q := ⟨y 0, y 1, eq_ix2 y⟩
  refine (stepBce_apply (grid0.coords t) (iblk m c 0 t) (iblk m c 1 t) (iblk m c 3 t) acc p q).trans ?_
  refine congrArg (acc (ix2 p q) + ·) (Finset.sum_congr rfl fun l _ => ?_)
  rw [blk1, blk0, row3, coord1]
  rfl

end Cert.KernelIdeal.Accum

end
-- ==== Proof.Accum.lean ====
/-
  The running sums.  After the point at position n of the grid, each accumulator holds, at row y of the block,
  the sum of its summand over the first (n % 8 + 1) * 8192 columns of row (n / 8) * 128 + y of the arguments:
  a first column block starts from zero and adds its 8192 columns; every later one adds its 8192 columns to the
  sum the point before left.  Induction on the position; the sums are over `Finset.range`, so one step is
  `Finset.sum_range_add`.
-/
import proofs.«144542_j34583076667969_2_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.CosBce

variable (m : (ℓ : Loc nD τ sig) → Buf (Elt Ideal) ℓ)

/-- The four reset blocks are the word of +0.0 everywhere. -/
theorem pay4_apply (y : S128x1.Idx) : k0_pay4 (F := Ideal) y = z32 := by
  unfold k0_pay4; simp only [shapeCast_self]; rfl
theorem pay5_apply (y : S128x1.Idx) : k0_pay5 (F := Ideal) y = z32 := by
  unfold k0_pay5; simp only [shapeCast_self]; rfl
theorem pay6_apply (y : S128x1.Idx) : k0_pay6 (F := Ideal) y = z32 := by
  unfold k0_pay6; simp only [shapeCast_self]; rfl
theorem pay7_apply (y : S128x1.Idx) : k0_pay7 (F := Ideal) y = z32 := by
  unfold k0_pay7; simp only [shapeCast_self]; rfl

/-- The running sum of summand `f` after position `n`, as a 128 x 1 block. -/
def accOf (f : ℕ → ℕ → EReal) (n : ℕ) : Vec Ideal S128x1 .f32 :=
  fun y => colSum f ((n / 8) * 128 + (y 0).val) ((n % 8 + 1) * 8192)

theorem accOf_first (f : ℕ → ℕ → EReal) (n : ℕ) (h0 : n % 8 = 0) (y : S128x1.Idx) :
    z32 + ∑ l : Fin 8192, f ((n / 8) * 128 + (y 0).val) ((n % 8) * 8192 + l.val) = accOf f n y := by
  unfold accOf
  rw [colSum_succ, h0, colSum_zero, z32_eq]

theorem accOf_later (f : ℕ → ℕ → EReal) (n : ℕ) (h0 : ¬(n + 1) % 8 = 0) (y : S128x1.Idx) :
    accOf f n y + ∑ l : Fin 8192, f (((n + 1) / 8) * 128 + (y 0).val) (((n + 1) % 8) * 8192 + l.val)
      = accOf f (n + 1) y := by
  have e1 : (n + 1) / 8 = n / 8 := by omega
  have e2 : (n + 1) % 8 = n % 8 + 1 := by omega
  unfold accOf
  rw [e1, e2, colSum_succ f _ (n % 8 + 1)]

/-- A point-indexed block that restarts from zero at every first column block and adds its point's 8192 columns
    to its predecessor elsewhere is the running sum. -/
theorem acc_induct (g : (n : ℕ) → n < cfg0.N → Vec Ideal S128x1 .f32) (f : ℕ → ℕ → EReal)
    (hfirst : ∀ (n : ℕ) (h : n < cfg0.N), n % 8 = 0 → ∀ y : S128x1.Idx,
      g n h y = z32 + ∑ l : Fin 8192, f ((n / 8) * 128 + (y 0).val) ((n % 8) * 8192 + l.val))
    (hlater : ∀ (n : ℕ) (h : n + 1 < cfg0.N), ¬(n + 1) % 8 = 0 → ∀ y : S128x1.Idx,
      g (n + 1) h y = g n (Nat.lt_of_succ_lt h) y
        + ∑ l : Fin 8192, f (((n + 1) / 8) * 128 + (y 0).val) (((n + 1) % 8) * 8192 + l.val)) :
    ∀ (n : ℕ) (h : n < cfg0.N), g n h = accOf f n
  | 0, h => funext fun y => (hfirst 0 h rfl y).trans (accOf_first f 0 rfl y)
  | n + 1, h => funext fun y => by
    by_cases h0 : (n + 1) % 8 = 0
    · exact (hfirst (n + 1) h h0 y).trans (accOf_first f (n + 1) h0 y)
    · rw [hlater n h h0 y, acc_induct g f hfirst hlater n (Nat.lt_of_succ_lt h)]
      exact accOf_later f n h0 y

theorem num_eq (c : Dev nD) : ∀ (n : ℕ) (h : n < cfg0.N),
    (outsAt0 m c n h).2.1 = accOf (tNum (aP m c) (aT m c) (aCw m c)) n :=
  acc_induct (fun n h => (outsAt0 m c n h).2.1) _
    (fun n h h0 y => (congrFun (first_0 m c ⟨n, h⟩ h0) y).trans
      ((num_step m c ⟨n, h⟩ (k0_pay4 (F := Ideal)) y).trans (congrArg (· + _) (pay4_apply y))))
    (fun n h h0 y => (congrFun (later_0 m c ⟨n + 1, h⟩ h0) y).trans (num_step m c ⟨n + 1, h⟩ _ y))

theorem aa_eq (c : Dev nD) : ∀ (n : ℕ) (h : n < cfg0.N),
    (outsAt0 m c n h).2.2.1 = accOf (tAa (aT m c) (aCw m c)) n :=
  acc_induct (fun n h => (outsAt0 m c n h).2.2.1) _
    (fun n h h0 y => (congrFun (first_1 m c ⟨n, h⟩ h0) y).trans
      ((aa_step m c ⟨n, h⟩ (k0_pay5 (F := Ideal)) y).trans (congrArg (· + _) (pay5_apply y))))
    (fun n h h0 y => (congrFun (later_1 m c ⟨n + 1, h⟩ h0) y).trans (aa_step m c ⟨n + 1, h⟩ _ y))

theorem bb_eq (c : Dev nD) : ∀ (n : ℕ) (h : n < cfg0.N),
    (outsAt0 m c n h).2.2.2.1 = accOf (tBb (aP m c) (aCw m c)) n :=
  acc_induct (fun n h => (outsAt0 m c n h).2.2.2.1) _
    (fun n h h0 y => (congrFun (first_2 m c ⟨n, h⟩ h0) y).trans
      ((bb_step m c ⟨n, h⟩ (k0_pay6 (F := Ideal)) y).trans (congrArg (· + _) (pay6_apply y))))
    (fun n h h0 y => (congrFun (later_2 m c ⟨n + 1, h⟩ h0) y).trans (bb_step m c ⟨n + 1, h⟩ _ y))

theorem bce_eq (c : Dev nD) : ∀ (n : ℕ) (h : n < cfg0.N),
    (outsAt0 m c n h).2.2.2.2 = accOf (tBce (aP m c) (aT m c) (aBw m c)) n :=
  acc_induct (fun n h => (outsAt0 m c n h).2.2.2.2) _
    (fun n h h0 y => (congrFun (first_3 m c ⟨n, h⟩ h0) y).trans
      ((bce_step m c ⟨n, h⟩ (k0_pay7 (F := Ideal)) y).trans (congrArg (· + _) (pay7_apply y))))
    (fun n h h0 y => (congrFun (later_3 m c ⟨n + 1, h⟩ h0) y).trans (bce_step m c ⟨n + 1, h⟩ _ y))

end Cert.KernelIdeal.Accum

end
-- ==== Proof.OutBlock.lean ====
/-
  The output block a last column point stores: the four accumulators side by side, which by then are the
  whole-row sums — the block of the array of partial results with the point's row block.
-/
import proofs.«144542_j34583076667969_2_alg».proof.Proof.Accum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Accum Cert.CosBce

variable (m : (ℓ : Loc nD τ sig) → Buf (Elt Ideal) ℓ) (ρ : Dev nD → PrngReg)

/-- The output block after a last column block, over the running sums. -/
theorem out_last (c : Dev nD) (t : Fin cfg0.N) (h1 : t.val % 8 = 7) :
    (outsAt0 m c t.val t.isLt).1
      = k0_pay3 (accOf (tNum (aP m c) (aT m c) (aCw m c)) t.val) (accOf (tAa (aT m c) (aCw m c)) t.val)
          (accOf (tBb (aP m c) (aCw m c)) t.val) (accOf (tBce (aP m c) (aT m c) (aBw m c)) t.val) := by
  have h0 : ¬t.val % 8 = 0 := by omega
  rw [last_out m c t h1, ← later_0 m c t h0, ← later_1 m c t h0, ← later_2 m c t h0, ← later_3 m c t h0,
    num_eq, aa_eq, bb_eq, bce_eq]

/-- Four columns side by side: entry (p, j) is column j at row p. -/
theorem pay3_apply (v0 v1 v2 v3 : Vec Ideal S128x1 .f32) (p : Fin 128) (j : Fin 4) :
    k0_pay3 v0 v1 v2 v3 (ix2 p j)
      = (match j with | 0 => v0 | 1 => v1 | 2 => v2 | 3 => v3) (ix2 p (0 : Fin 1)) := by
  unfold k0_pay3
  have hi : ∀ (jj : Fin 4) (b : Fin S128x1.rank), b.cast (rfl : S128x1.rank = S128x4.rank) ≠ (1 : Fin 2) →
      ((ix2 p (0 : Fin 1) : S128x1.Idx) b).val = ((ix2 p jj : S128x4.Idx) (b.cast rfl)).val := fun jj b hb => by
    match b with
    | ⟨0, _⟩ => rfl
    | ⟨1, _⟩ => exact absurd rfl hb
  match j with
  | 0 => exact concatenate_apply_piece (t := S128x4) (1 : Fin 2) [⟨S128x1, v0⟩, ⟨S128x1, v1⟩, ⟨S128x1, v2⟩, ⟨S128x1, v3⟩] concatenates_S128x1_S128x1_S128x1_S128x1_S128x4_d1 (ix2 p (0 : Fin 4)) 0 (show 0 < 4 by decide) S128x1 v0 rfl rfl 0 rfl (ix2 p (0 : Fin 1)) (hi 0) rfl
  | 1 => exact concatenate_apply_piece (t := S128x4) (1 : Fin 2) [⟨S128x1, v0⟩, ⟨S128x1, v1⟩, ⟨S128x1, v2⟩, ⟨S128x1, v3⟩] concatenates_S128x1_S128x1_S128x1_S128x1_S128x4_d1 (ix2 p (1 : Fin 4)) 1 (show 1 < 4 by decide) S128x1 v1 rfl rfl 1 rfl (ix2 p (0 : Fin 1)) (hi 1) rfl
  | 2 => exact concatenate_apply_piece (t := S128x4) (1 : Fin 2) [⟨S128x1, v0⟩, ⟨S128x1, v1⟩, ⟨S128x1, v2⟩, ⟨S128x1, v3⟩] concatenates_S128x1_S128x1_S128x1_S128x1_S128x4_d1 (ix2 p (2 : Fin 4)) 2 (show 2 < 4 by decide) S128x1 v2 rfl rfl 2 rfl (ix2 p (0 : Fin 1)) (hi 2) rfl
  | 3 => exact concatenate_apply_piece (t := S128x4) (1 : Fin 2) [⟨S128x1, v0⟩, ⟨S128x1, v1⟩, ⟨S128x1, v2⟩, ⟨S128x1, v3⟩] concatenates_S128x1_S128x1_S128x1_S128x1_S128x4_d1 (ix2 p (3 : Fin 4)) 3 (show 3 < 4 by decide) S128x1 v3 rfl rfl 3 rfl (ix2 p (0 : Fin 1)) (hi 3) rfl

/-- The array of partial results on core c, as the specification has it. -/
abbrev outArr (c : Dev nD) : S4.Idx → EReal := partials (aP m c) (aT m c) (aCw m c) (aBw m c)

theorem idx4 : ∀ t : Fin cfg0.N, win0_4.index t 0 = t.val / 8 ∧ win0_4.index t 1 = 0 :=
  (by decide +kernel : ∀ t : Fin grid0.N, win0_4.index t 0 = t.val / 8 ∧ win0_4.index t 1 = 0)

/-- After a last column block the running sums are whole-row sums: entry (p, j) of the block is the j-th column
    sum of row (n / 8) * 128 + p. -/
theorem blockEntry (P T : S2.Idx → EReal) (cw bw : S1.Idx → EReal) (n : ℕ) (h7 : n % 8 = 7) (p : Fin 128) (j : Fin 4)
    (r col : ℕ) (hr : r = (n / 8) * 128 + p.val) (hc : col = j.val) :
    (match j with
      | 0 => accOf (tNum P T cw) n | 1 => accOf (tAa T cw) n | 2 => accOf (tBb P cw) n | 3 => accOf (tBce P T bw) n)
        (ix2 p (0 : Fin 1))
      = colSum (term P T cw bw col) r 65536 := by
  subst hr hc
  have e : (n % 8 + 1) * 8192 = 65536 := by omega
  match j with
  | 0 => unfold accOf; rw [e]; rfl
  | 1 => unfold accOf; rw [e]; rfl
  | 2 => unfold accOf; rw [e]; rfl
  | 3 => unfold accOf; rw [e]; rfl

/-- The block of the array of partial results with row block n / 8. -/
def blockFn (c : Dev nD) (n : ℕ) : Vec Ideal S128x4 .f32 :=
  fun z => colSum (term (aP m c) (aT m c) (aCw m c) (aBw m c) (z 1).val) ((n / 8) * 128 + (z 0).val) 65536

theorem block_eq (c : Dev nD) (n : ℕ) (h7 : n % 8 = 7) :
    k0_pay3 (accOf (tNum (aP m c) (aT m c) (aCw m c)) n) (accOf (tAa (aT m c) (aCw m c)) n)
        (accOf (tBb (aP m c) (aCw m c)) n) (accOf (tBce (aP m c) (aT m c) (aBw m c)) n)
      = blockFn m c n := by
  funext z
  obtain ⟨p, j, rfl⟩ : ∃ (p : Fin 128) (j : Fin 4), z = ix2 p j := ⟨z 0, z 1, eq_ix2 z⟩
  refine (pay3_apply _ _ _ _ p j).trans ?_
  exact blockEntry _ _ _ _ n h7 p j _ _ rfl rfl

end Cert.KernelIdeal.Value

end
-- ==== Proof.Final.lean ====
/-
  From blocks to the array.  Only the last column point of each row block writes the output block back, and what
  it writes is its block of the array of partial results; the four such blocks tile the 512 x 4 array, so after
  the run the array holds the partial results.
-/
import proofs.«144542_j34583076667969_2_alg».proof.Proof.OutBlock

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Accum Cert.CosBce

variable (m : (ℓ : Loc nD τ sig) → Buf (Elt Ideal) ℓ) (ρ : Dev nD → PrngReg)

/-- What a last column block writes back is its block of the array of partial results. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  obtain ⟨e0, e1⟩ := idx4 t
  show (cfg0.win 4).cut (grid0.coords t) ((dats m 0 c).after 4 t) = _
  rw [after0_4, out_last m c t h7, block_eq m c t.val h7]
  funext y
  rw [View.read_apply]
  have k0 : ((((cfg0.win 4).blk t).view.emb y) 0).val = (t.val / 8) * 128 + (y 0).val := by
    show win0_4.index t 0 * 128 + 1 * (y 0).val = _
    rw [e0]; omega
  have k1 : ((((cfg0.win 4).blk t).view.emb y) 1).val = (y 1).val := by
    show win0_4.index t 1 * 4 + 1 * (y 1).val = _
    rw [e1]; omega
  show colSum (term _ _ _ _ (y 1).val) ((t.val / 8) * 128 + (y 0).val) 65536
    = colSum (term _ _ _ _ ((((cfg0.win 4).blk t).view.emb y) 1).val) ((((cfg0.win 4).blk t).view.emb y) 0).val 65536
  rw [k0, k1]

theorem mem_blk (t : Fin cfg0.N) (i : S512x4.Idx) :
    i ∈ ((cfg0.win 4).blk t).view.set ↔ ∀ a : Fin 2, win0_4.index t a * S128x4.size a ≤ (i a).val
      ∧ (i a).val < win0_4.index t a * S128x4.size a + S128x4.size a := by
  show i ∈ ((View.whole main_v2).slice (win0_4.rect t)).set ↔ _
  rw [View.set_slice_whole, Rect.mem_set_unit]
  exact Iff.rfl

/-- Every row of the array of partial results lies in the block of the last column point of its row block. -/
theorem cover (i : S512x4.Idx) :
    ∃ t : Fin cfg0.N, (cfg0.win 4).flush t = true ∧ i ∈ ((cfg0.win 4).blk t).view.set := by
  have hi0 : (i 0).val < 512 := (i 0).isLt
  have hi1 : (i 1).val < 4 := (i 1).isLt
  have hN : cfg0.N = 32 := N_0
  have hlt : 8 * ((i 0).val / 128) + 7 < cfg0.N := by rw [hN]; omega
  obtain ⟨e0, e1⟩ := idx4 ⟨8 * ((i 0).val / 128) + 7, hlt⟩
  refine ⟨⟨8 * ((i 0).val / 128) + 7, hlt⟩, (flush0_4 _).mpr (by show (8 * ((i 0).val / 128) + 7) % 8 = 7; omega), ?_⟩
  rw [mem_blk]
  intro a
  match a with
  | ⟨0, _⟩ =>
    show win0_4.index ⟨8 * ((i 0).val / 128) + 7, hlt⟩ 0 * 128 ≤ (i 0).val
      ∧ (i 0).val < win0_4.index ⟨8 * ((i 0).val / 128) + 7, hlt⟩ 0 * 128 + 128
    rw [e0]
    show (8 * ((i 0).val / 128) + 7) / 8 * 128 ≤ (i 0).val ∧ (i 0).val < (8 * ((i 0).val / 128) + 7) / 8 * 128 + 128
    omega
  | ⟨1, _⟩ =>
    show win0_4.index ⟨8 * ((i 0).val / 128) + 7, hlt⟩ 1 * 4 ≤ (i 1).val
      ∧ (i 1).val < win0_4.index ⟨8 * ((i 0).val / 128) + 7, hlt⟩ 1 * 4 + 4
    rw [e1]; omega

/-- The array of partial results after the run. -/
theorem final (c : Dev nD) : (dats m 0 c).arrAt 4 cfg0.N = outArr m c :=
  (dats m 0 c).arrAt_eq_of_cover 4 (outArr m c) (flushed_eq m c) cover

end Cert.KernelIdeal.Value

end
-- ==== Proof.Finish.lean ====
/-
  The last, cheap stage both programs share: from the three per-row sums of the cosine term, the total weighted
  loss and the loss weights to the scalar result,
      -( (sum_r num r / (max (sqrt (aa r)) eps * max (sqrt (bb r)) eps)) / 512 )
        + (tot / (sum_c bw c + eps')) / 10,
  written once with the host's operations at the ideal instance, so that neither side ever opens it.
-/
import proofs.«144542_j34583076667969_2_alg».proof.Proof.Spec

noncomputable section

open Idealize.ShloMosaic Idealize.ShloMosaic.ValueIdx

namespace Cert.CosBce

/-- One number per row. -/
abbrev V512 : Shape := ⟨1, ![512]⟩
/-- A scalar. -/
abbrev Sc : Shape := ⟨0, ![]⟩

theorem bc_Sc_V512 : Sc.BroadcastsInDim V512 (![] : Fin 0 → Fin V512.rank) := by decide
theorem red_V512 : V512.ReducesTo [0] Sc := by decide
theorem red_S1 : S1.ReducesTo [0] Sc := by decide
theorem pos_Sc : 0 < Sc.numel := by decide

/-- The shared last stage. -/
def finish (num aa bb : FVec Ideal V512 .f32) (tot : FVec Ideal Sc .f32) (bw : FVec Ideal S1 .f32) : FVec Ideal Sc .f32 :=
  addf
    (Host.negf (Host.divf
      (Host.reduceAdd
        (Host.divf num
          (mulf (maximumf (Host.sqrt aa) (broadcastInDim V512 ![] bc_Sc_V512 (constant (F := Ideal) Sc .f32 0x322BCC77#32)))
                (maximumf (Host.sqrt bb) (broadcastInDim V512 ![] bc_Sc_V512 (constant (F := Ideal) Sc .f32 0x322BCC77#32)))))
        (constant (F := Ideal) Sc .f32 0x00000000#32) red_V512 pos_Sc)
      (constant (F := Ideal) Sc .f32 0x44000000#32)))
    (Host.divf
      (Host.divf tot
        (addf (Host.reduceAdd bw (constant (F := Ideal) Sc .f32 0x00000000#32) red_S1 pos_Sc)
          (constant (F := Ideal) Sc .f32 0x2EDBE6FF#32)))
      (constant (F := Ideal) Sc .f32 0x41200000#32))

/-- Column j of the array of partial results, as one number per row. -/
def colOf (o : S4.Idx → EReal) (j : Fin 4) : FVec Ideal V512 .f32 := fun i => o (ix2 (i 0) j)

/-- The whole result as a function of the array of partial results and the loss weights. -/
def result (o : S4.Idx → EReal) (bw : FVec Ideal S1 .f32) : FVec Ideal Sc .f32 :=
  finish (colOf o 0) (colOf o 1) (colOf o 2)
    (Host.reduceAdd (colOf o 3) (constant (F := Ideal) Sc .f32 0x00000000#32) red_V512 pos_Sc) bw

end Cert.CosBce

end
-- ==== Proof.KernelRun.lean ====
/-
  The kernel program's run, read: after the region the host slices the four columns out of the array of partial
  results and finishes; the result buffer ends at the shared last stage of the partial results, the arguments
  unchanged.
-/
import proofs.«144542_j34583076667969_2_alg».proof.Proof.Final
import proofs.«144542_j34583076667969_2_alg».proof.Proof.Finish
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Accum Cert.CosBce

variable (m : (ℓ : Loc nD τ sig) → Buf (Elt Ideal) ℓ) (ρ : Dev nD → PrngReg)

/-- Column j of a 512 x 4 array, sliced out and flattened, is one number per row. -/
theorem col_eq (O : S512x4.Idx → EReal) (j : Fin 4) (off : Fin 2 → ℕ) (hoff : off = ![0, j.val])
    (hs : S512x4.Slices off S512x1) :
    (fun i => shapeCast S512 (extractStridedSlice S512x1 off O hs) shapeCasts_S512x1_S512 i) = colOf O j := by
  subst hoff
  funext i
  obtain ⟨r, rfl⟩ : ∃ r : Fin 512, i = ix1 r := ⟨i 0, eq_ix1 i⟩
  refine (shapeCast_apply _ _ (ix1 r) (ix2 r (0 : Fin 1)) ?_).trans ?_
  · rw [Shape.rowMajor_val_two, Shape.rowMajor_val_one]
    show r.val * 1 + 0 = r.val
    omega
  · refine extractStridedSlice_apply _ O hs (ix2 r (0 : Fin 1)) (ix2 r j) fun a => ?_
    match a with
    | ⟨0, _⟩ => show r.val = 0 + r.val; omega
    | ⟨1, _⟩ => show j.val = j.val + 0; omega

theorem tail_eq (c : Dev nD) :
    Pipeline.afterTail₀ cfgs (dats m) 0 (V0 m) [hostOps1] c main_v27 = result (outArr m c) (aBw m c) := by
  unfold Pipeline.afterTail₀
  have h2 : Pipeline.withArrays (cfgs 0).spec c (V0 m c) (fun w => (dats m 0 c).arrAt w (cfgs 0).N) (Proc.devRef .tc main_v2)
      = outArr m c := (Pipeline.withArrays_arr spec0 launch0.win.arr_inj c _ _ 4).trans (final m c)
  have h3 : Pipeline.withArrays (cfgs 0).spec c (V0 m c) (fun w => (dats m 0 c).arrAt w (cfgs 0).N) (Proc.devRef .tc main_arg3)
      = aBw m c := (Pipeline.withArrays_of_ne _ c (V0 m c) _ main_arg3
        (by exact (by decide : ∀ w, Pipeline.arrRef spec0 w ≠ main_arg3))).trans (V_main_arg3 m c)
  generalize Pipeline.withArrays (cfgs 0).spec c (V0 m c) (fun w => (dats m 0 c).arrAt w (cfgs 0).N) = W at h2 h3 ⊢
  show StableHlo.after (hostOps1 (F := Ideal)) W (Proc.devRef .tc main_v27) = _
  after_results_simp
  rw [h2, h3]
  have e0 : (fun i => shapeCast S512 (extractStridedSlice S512x1 ![0, 0] (outArr m c) slices_S512x4_S512x1_0_0) shapeCasts_S512x1_S512 i)
      = colOf (outArr m c) 0 := col_eq (outArr m c) 0 ![0, 0] rfl slices_S512x4_S512x1_0_0
  have e1 : (fun i => shapeCast S512 (extractStridedSlice S512x1 ![0, 1] (outArr m c) slices_S512x4_S512x1_0_1) shapeCasts_S512x1_S512 i)
      = colOf (outArr m c) 1 := col_eq (outArr m c) 1 ![0, 1] rfl slices_S512x4_S512x1_0_1
  have e2 : (fun i => shapeCast S512 (extractStridedSlice S512x1 ![0, 2] (outArr m c) slices_S512x4_S512x1_0_2) shapeCasts_S512x1_S512 i)
      = colOf (outArr m c) 2 := col_eq (outArr m c) 2 ![0, 2] rfl slices_S512x4_S512x1_0_2
  have e3 : (fun i => shapeCast S512 (extractStridedSlice S512x1 ![0, 3] (outArr m c) slices_S512x4_S512x1_0_3) shapeCasts_S512x1_S512 i)
      = colOf (outArr m c) 3 := col_eq (outArr m c) 3 ![0, 3] rfl slices_S512x4_S512x1_0_3
  show finish
      (fun i => shapeCast S512 (extractStridedSlice S512x1 ![0, 0] (outArr m c) slices_S512x4_S512x1_0_0) shapeCasts_S512x1_S512 i)
      (fun i => shapeCast S512 (extractStridedSlice S512x1 ![0, 1] (outArr m c) slices_S512x4_S512x1_0_1) shapeCasts_S512x1_S512 i)
      (fun i => shapeCast S512 (extractStridedSlice S512x1 ![0, 2] (outArr m c) slices_S512x4_S512x1_0_2) shapeCasts_S512x1_S512 i)
      (Host.reduceAdd
        (fun i => shapeCast S512 (extractStridedSlice S512x1 ![0, 3] (outArr m c) slices_S512x4_S512x1_0_3) shapeCasts_S512x1_S512 i)
        (constant (F := Ideal) S_ .f32 0x00000000#32) reducesTo_S512_S_d0 h_S_)
      (aBw m c) = result (outArr m c) (aBw m c)
  rw [e0, e1, e2, e3]
  rfl

/-- Every weakly fair execution of the idealized kernel program terminates with the result at the shared last
    stage of the specification's partial results, and the arguments unchanged. -/
theorem run : θ_run defs (onTc (τ := τ) (main (F := Ideal))) ⟨m, fun _ => 0, ρ⟩ fun r => ∀ c : Dev nD,
      r.2.mem ((c.tc : Thread nD τ).loc main_v27) = result (outArr m c) (aBw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.RefValue.lean ====
/-
  The reference computes the specification.  Its three per-row sums are the first three columns of the array of
  partial results: term by term (t * cw) * (p * cw) = (t * p) * (cw * cw), by commutativity and associativity of
  the product of extended reals, and the host's sum over the column axis is the sum over the 65536 columns.  Its
  total weighted loss, summed over both axes at once, is the sum over the rows of the fourth column.  Its last
  stage is the shared one.
-/
import proofs.«144542_j34583076667969_2_alg».proof.Proof.Gen.ReferenceIdeal.Read
import proofs.«144542_j34583076667969_2_alg».proof.Proof.Finish

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.CosBce

variable (P T : S2.Idx → EReal) (cw bw : S1.Idx → EReal)

theorem idx7 (r : Fin 512) (k : Fin 65536) : idx_main_v7 (ix1 r) k = ix2 r k :=
  funext fun a => by match a with | ⟨0, _⟩ => rfl | ⟨1, _⟩ => rfl
theorem idx01 (r : Fin 512) (k : Fin 65536) : idx_main_v0 (idx_main_v1 (ix2 r k)) = ix1 k :=
  funext fun a => by match a with | ⟨0, _⟩ => rfl

/-- The weighted target and the weighted prediction at an entry. -/
theorem v2_at (r : Fin 512) (k : Fin 65536) :
    val_main_v2 (F := Ideal) T cw (ix2 r k) = at2 T r.val k.val * at1 cw k.val := by
  rw [val_main_v2_apply, val_main_v1_apply, val_main_v0_apply, at2_of_lt, at1_of_lt]
  exact congrArg (fun j => T (ix2 r k) * cw j) (idx01 r k)
theorem v5_at (r : Fin 512) (k : Fin 65536) :
    val_main_v5 (F := Ideal) P cw (ix2 r k) = at2 P r.val k.val * at1 cw k.val := by
  rw [val_main_v5_apply, val_main_v4_apply, val_main_v3_apply, at2_of_lt, at1_of_lt]
  exact congrArg (fun j => P (ix2 r k) * cw j) (idx01 r k)

theorem v6_at (r : Fin 512) (k : Fin 65536) :
    val_main_v6 (F := Ideal) P T cw (ix2 r k) = tNum P T cw r.val k.val := by
  rw [val_main_v6_apply, v2_at, v5_at]
  unfold tNum
  exact mul_mul_mul_comm _ _ _ _
theorem v8_at (r : Fin 512) (k : Fin 65536) :
    val_main_v8 (F := Ideal) T cw (ix2 r k) = tAa T cw r.val k.val := by
  rw [val_main_v8_apply, v2_at]
  unfold tAa
  exact mul_mul_mul_comm _ _ _ _
theorem v11_at (r : Fin 512) (k : Fin 65536) :
    val_main_v11 (F := Ideal) P cw (ix2 r k) = tBb P cw r.val k.val := by
  rw [val_main_v11_apply, v5_at]
  unfold tBb
  exact mul_mul_mul_comm _ _ _ _

/-- The three per-row sums are columns 0, 1, 2 of the array of partial results. -/
theorem v7_eq : val_main_v7 (F := Ideal) P T cw = colOf (partials P T cw bw) 0 := by
  funext i
  obtain ⟨r, rfl⟩ : ∃ r : Fin 512, i = ix1 r := ⟨i 0, eq_ix1 i⟩
  rw [val_main_v7_apply]
  show z32 + _ = colSum (tNum P T cw) r.val 65536
  rw [z32_eq, zero_add, colSum_full]
  exact Finset.sum_congr rfl fun k _ => by rw [idx7, v6_at]
theorem v9_eq : val_main_v9 (F := Ideal) T cw = colOf (partials P T cw bw) 1 := by
  funext i
  obtain ⟨r, rfl⟩ : ∃ r : Fin 512, i = ix1 r := ⟨i 0, eq_ix1 i⟩
  rw [val_main_v9_apply]
  show z32 + _ = colSum (tAa T cw) r.val 65536
  rw [z32_eq, zero_add, colSum_full]
  exact Finset.sum_congr rfl fun k _ => by rw [show idx_main_v9 (ix1 r) k = ix2 r k from idx7 r k, v8_at]
theorem v12_eq : val_main_v12 (F := Ideal) P cw = colOf (partials P T cw bw) 2 := by
  funext i
  obtain ⟨r, rfl⟩ : ∃ r : Fin 512, i = ix1 r := ⟨i 0, eq_ix1 i⟩
  rw [val_main_v12_apply]
  show z32 + _ = colSum (tBb P cw) r.val 65536
  rw [z32_eq, zero_add, colSum_full]
  exact Finset.sum_congr rfl fun k _ => by rw [show idx_main_v12 (ix1 r) k = ix2 r k from idx7 r k, v11_at]

/-- The weighted loss at an entry. -/
theorem v34_at (r : Fin 512) (k : Fin 65536) :
    val_main_v34 (F := Ideal) P T bw (ix2 r k) = tBce P T bw r.val k.val := by
  rw [val_main_v34_apply, val_main_v33_apply, val_main_v32_apply, val_main_v31_apply, val_main_v30_apply,
    val_main_v29_apply, val_main_v28_apply, val_main_v27_apply, val_main_v26_apply, val_main_v25_apply,
    val_main_v24_apply, val_main_v23_apply]
  unfold tBce bce
  rw [at2_of_lt, at2_of_lt, at1_of_lt]
  have e : idx_main_v32 (idx_main_v33 (ix2 r k)) = ix1 k := idx01 r k
  rw [e]
  show (max (T (ix2 r k)) z32 - T (ix2 r k) * P (ix2 r k)
      + Ideal.log1p (Ideal.exp (-(max (T (ix2 r k)) (-(T (ix2 r k))))))) * bw (ix1 k) = _
  rw [z32_eq, zero_sub]

/-- The host's sum of one number per row. -/
theorem hostSum512 (x : FVec Ideal V512 .f32) (i : Sc.Idx) :
    Host.reduceAdd x (constant (F := Ideal) Sc .f32 0x00000000#32) red_V512 pos_Sc i = z32 + ∑ j : V512.Idx, x j := by
  simp only [Host.reduceAdd, Ideal.hostReduceAdd_def]
  exact Ideal.hostReduceAdd_total red_V512 (fun b => b.elim0) x _ i

/-- The total weighted loss is the sum over the rows of column 3 of the array of partial results. -/
theorem v35_eq : val_main_v35 (F := Ideal) P T bw
    = Host.reduceAdd (colOf (partials P T cw bw) 3) (constant (F := Ideal) Sc .f32 0x00000000#32) red_V512 pos_Sc := by
  funext i
  rw [val_main_v35_apply, hostSum512, sum_idx2, sum_idx1]
  refine congrArg (z32 + ·) (Finset.sum_congr rfl fun r _ => ?_)
  show _ = colSum (tBce P T bw) r.val 65536
  rw [colSum_full]
  exact Finset.sum_congr rfl fun k _ => v34_at P T bw r k

/-- The reference's result is the shared last stage of the partial results. -/
theorem v40_eq : val_main_v40 (F := Ideal) P T cw bw = result (partials P T cw bw) bw := by
  show finish (val_main_v7 (F := Ideal) P T cw) (val_main_v9 (F := Ideal) T cw) (val_main_v12 (F := Ideal) P cw)
    (val_main_v35 (F := Ideal) P T bw) bw = _
  rw [v7_eq P T cw bw, v9_eq P T cw bw, v12_eq P T cw bw, v35_eq P T cw bw]
  rfl

end Cert.ReferenceIdeal.RefValue

end
-- ==== Proof.lean ====
/-
  The certificate's claim.  The kernel streams 128 x 8192 tiles of `prediction` and `target` over a 4 x 8 grid,
  keeping per row block four running row sums across the eight column blocks, and writes them as a 512 x 4 array
  of partial results from which a few host operations finish the loss; the reference computes the same loss with
  whole-array operations.  At the ideal instance both are the shared last stage (Finish) of the specification's
  partial results (Spec): the kernel by induction over the grid points (Pieces, Cases, StepIdeal, Blocks, Accum,
  OutBlock, Final, KernelRun), the reference operation by operation (RefValue).  The frames of the two kernel
  programs are the generated ones, the reference's is its generated run with the result dropped, and the
  idealization rewrote nothing.
-/
import proofs.«144542_j34583076667969_2_alg».proof.Defs
import proofs.«144542_j34583076667969_2_alg».proof.Proof.Gen.Kernel
import proofs.«144542_j34583076667969_2_alg».proof.Proof.Gen.Kernel.Frame
import proofs.«144542_j34583076667969_2_alg».proof.Proof.Gen.KernelIdeal
import proofs.«144542_j34583076667969_2_alg».proof.Proof.Gen.KernelIdeal.Frame
import proofs.«144542_j34583076667969_2_alg».proof.Proof.Gen.ReferenceIdeal
import proofs.«144542_j34583076667969_2_alg».proof.Proof.Gen.Pre_finite_inputs
import proofs.«144542_j34583076667969_2_alg».proof.Proof.Gen.ReferenceIdeal.Run
import proofs.«144542_j34583076667969_2_alg».proof.Proof.Gen.ReferenceIdeal.Read
import proofs.«144542_j34583076667969_2_alg».proof.Proof.KernelRun
import proofs.«144542_j34583076667969_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel program ends at the shared last stage of the partial results of its
    arguments and the reference at that of its own: the same extended real. -/
theorem algebraic : Cert.algebraic_KernelIdeal_ReferenceIdeal := by
  intro m ρ m' ρ' _ hagree
  refine ⟨fun c => Cert.CosBce.result (Cert.KernelIdeal.Value.outArr m c) (Cert.KernelIdeal.Accum.aBw m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.v40_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
